-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : FVec F S512x512 .f32) (main_arg2 : FVec F S512x512 .f32) (main_arg3 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩

abbrev nBuf : Space → Nat
  | .hbm => 7
  | .vmem => 9
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S10000x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S1000x512, .f32⟩
  | .local _ .vmem, ⟨4, _⟩ => ⟨S1000x512, .f32⟩
  | .local _ .vmem, ⟨5, _⟩ => ⟨S512x512, .bf16⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S1000x512_S1000x512_0_0 : ∀ a, (![0, 0] : Fin 2 → Nat) a + S1000x512.size a ≤ S1000x512.size a
  h_S1000x512 : 0 < S1000x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  dot_S512x512_S512x512_S512x512_1_1_0_0_n_n_wf : DotDims.WF S512x512 S512x512 S512x512 [1] [1] [0] [0] [] []
  dot_S1000x512_S512x512_S1000x512_1_0_0_1_n_n_wf : DotDims.WF S1000x512 S512x512 S1000x512 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S10000x512.size a
  hwx1_3 : ∀ i : grid1.Coords, EltTy.bits .f32 = 32 ∨ (Rect.block (s := S10000x512) S1000x512.size (cc1_transform_3 i) (hinb1_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S10000x512, .f32⟩
  | .hbm, ⟨5, _⟩ => ⟨S512x512, .f32⟩
  | .hbm, ⟨6, _⟩ => ⟨S10000x512, .f32⟩
  | .hbm, ⟨7, _⟩ => ⟨S1x512, .f32⟩
  | .hbm, ⟨8, _⟩ => ⟨S10000x512, .f32⟩
  | .hbm, ⟨9, _⟩ => ⟨S10000x512, .f32⟩
  | .hbm, ⟨10, _⟩ => ⟨S_, .f32⟩
  | .hbm, ⟨11, _⟩ => ⟨S10000x512, .f32⟩
  | .hbm, ⟨12, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.KernelRun.lean ====
/-
  The idealized kernel's run, with its result array named.

  The program is two kernel launches with one host reshape between them. Its generated frame follows the buffer
  contents through the three segments: at launch, after the first launch (the combined weight written), after the
  reshape of the bias, after the second launch (the result written). Here the same run is read once more with a
  stronger conclusion: besides the four arguments ending as launched, the result buffer ends holding what the
  second launch's write-backs leave in its array.
-/
import proofs.«142925_g50663434224280_cont_8to1_c_477_6_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer holds the second launch's output
    array after all ten row blocks are written back, and the arguments are unchanged. -/
theorem run_out : θ_run defs (onTc (τ := τ) (main (F := F))) ⟨m, fun _ => 0, ρ⟩ (fun r => ∀ c : Dev nD,
      r.2.mem ((c.tc : Thread nD τ).loc main_v0) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v0 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.RunValue

end
-- ==== Proof.Payloads.lean ====
/-
  What each kernel body writes, entry by entry, as a function of what it loads.

  The first body loads the support matrix and the weight whole and stores their contraction over the second axis of
  both (the weight is stored output-major, so this is the product with its transpose), narrowed to sixteen bits — a
  change of format, which is the identity on exact values. Its entry `(l, j)` is `∑ₖ s l k · w j k`.

  The second body loads a block of a thousand feature rows, the combined weight whole and the bias as one row, and
  stores `max (x · c + b) 0`: the features are narrowed first (the identity again), the product contracts the
  features' second axis with the combined weight's first, the bias row is broadcast over the thousand rows, and the
  zero of the maximum is the word of all zero bits. Its entry `(p, j)` is `max (∑ₗ x p l · c l j + b 0 j) 0`.
-/
import proofs.«142925_g50663434224280_cont_8to1_c_477_6_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## The first body: the two weights contracted over their second axes -/

theorem combine_lhs0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl
theorem combine_rhs0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

/-- The first body's stored value at `(l, j)`: row `l` of the first operand contracted with row `j` of the second. -/
theorem combine_apply (v0 v1 : Vec Ideal S512x512 .f32) (l j : Fin 512) :
    k0_pay1 (F := Ideal) v0 v1 (ix2 l j) = ∑ k : Fin 512, v0 (ix2 l k) * v1 (ix2 j k) := by
  unfold k0_pay1
  rw [truncf_apply]
  simp only [matmul]
  rw [Ideal.matmul_constant_zero_apply,
    ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 l j)
      ((ValueIdx.contrEquiv1 dot_S512x512_S512x512_S512x512_1_1_0_0_n_n 512 rfl rfl).symm k) = ix2 l k :=
    funext fun a => Fin.ext (by
      match a with
      | ⟨0, _⟩ => exact combine_lhs0 _ _
      | ⟨1, _⟩ => exact (dot_S512x512_S512x512_S512x512_1_1_0_0_n_n.lhsIdx_val_of_single rfl _ _).trans hk)
  have er : dot_S512x512_S512x512_S512x512_1_1_0_0_n_n.rhsIdx (ix2 l j)
      ((ValueIdx.contrEquiv1 dot_S512x512_S512x512_S512x512_1_1_0_0_n_n 512 rfl rfl).symm k) = ix2 j k :=
    funext fun a => Fin.ext (by
      match a with
      | ⟨0, _⟩ => exact combine_rhs0 _ _
      | ⟨1, _⟩ => exact (dot_S512x512_S512x512_S512x512_1_1_0_0_n_n.rhsIdx_val_of_single rfl _ _).trans hk)
  rw [el, er]

/-! ## The second body: a block of features times the combined weight, plus the bias row, clamped at zero -/

theorem stream_lhs0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl
theorem stream_rhs1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-- The product inside the second body at `(p, j)`: row `p` of the block against column `j` of the combined weight. -/
theorem stream_matmul_apply (u : FVec Ideal S1000x512 .bf16) (c : FVec Ideal S512x512 .bf16) (p : Fin 1000) (j : Fin 512) :
    matmul dot_S1000x512_S512x512_S1000x512_1_0_0_1_n_n none u c (constant S1000x512 .f32 0x00000000#32) (ix2 p j)
      = ∑ l : Fin 512, u (ix2 p l) * c (ix2 l j) := by
  simp only [matmul]
  rw [Ideal.matmul_constant_zero_apply,
    ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p j)
      ((ValueIdx.contrEquiv1 dot_S1000x512_S512x512_S1000x512_1_0_0_1_n_n 512 rfl rfl).symm k) = ix2 p k :=
    funext fun a => Fin.ext (by
      match a with
      | ⟨0, _⟩ => exact stream_lhs0 _ _
      | ⟨1, _⟩ => exact (dot_S1000x512_S512x512_S1000x512_1_0_0_1_n_n.lhsIdx_val_of_single rfl _ _).trans hk)
  have er : dot_S1000x512_S512x512_S1000x512_1_0_0_1_n_n.rhsIdx (ix2 p j)
      ((ValueIdx.contrEquiv1 dot_S1000x512_S512x512_S1000x512_1_0_0_1_n_n 512 rfl rfl).symm k) = ix2 k j :=
    funext fun a => Fin.ext (by
      match a with
      | ⟨0, _⟩ => exact (dot_S1000x512_S512x512_S1000x512_1_0_0_1_n_n.rhsIdx_val_of_single rfl _ _).trans hk
      | ⟨1, _⟩ => exact stream_rhs1 _ _)
  rw [el, er]

/-- The second body's stored value at `(p, j)`. -/
theorem stream_apply (v0 : Vec Ideal S1000x512 .f32) (v2 : Vec Ideal S512x512 .bf16) (v5 : Vec Ideal S1x512 .f32)
    (p : Fin 1000) (j : Fin 512) :
    k1_pay1 (F := Ideal) v0 v2 v5 (ix2 p j)
      = max ((∑ l : Fin 512, v0 (ix2 p l) * v2 (ix2 l j)) + v5 (ix2 (0 : Fin 1) j)) 0 := by
  unfold k1_pay1
  rw [maximumf_apply, addf_apply, broadcast_apply, shapeCast_self, shapeCast_self, stream_matmul_apply,
    broadcastTo_1b_ab_apply]
  simp only [truncf_apply]
  show max _ (Ideal.ofBits .f32 0x00000000#32) = _
  rw [Ideal.ofBits_zero_f32]

end Cert.KernelIdeal.Payloads

end
-- ==== Proof.StreamValue.lean ====
/-
  The second launch's output array after its ten row blocks are written back.

  At grid point `t` the launch stages rows `1000·t … 1000·t + 999` of the features, the whole combined weight and the
  whole bias row, and writes rows `1000·t … 1000·t + 999` of the output. What the body stores at `(p, j)` of its block
  depends on row `p` of the staged features, column `j` of the combined weight and entry `j` of the bias row, so it is
  entry `(1000·t + p, j)` of ONE function of the three whole arrays, `max (∑ₗ x r l · c l j + b 0 j) 0`. The ten
  blocks tile the output (row `r` lies in block `r / 1000`), so after the run the output array is that function.
  Everything is stated for arbitrary contents of the arrays at the launch's entry.
-/
import proofs.«142925_g50663434224280_cont_8to1_c_477_6_alg».proof.Proof.Gen.KernelIdeal.Frame
import proofs.«142925_g50663434224280_cont_8to1_c_477_6_alg».proof.Proof.Payloads

set_option maxRecDepth 16384

noncomputable section

open scoped BigOperators

namespace Cert.KernelIdeal.StreamValue

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Every load and the store of the body start at the origin of their buffers. -/
theorem zero_offsets : (![0, 0] : Fin 2 → Nat) = fun _ => 0 := funext fun a => by fin_cases a <;> rfl

/-- Entry `(r, j)` of the streamed product: row `r` of the features against column `j` of the combined weight, plus the
    bias row at `j`, clamped below at zero. -/
def streamOut (x : S10000x512.Idx → EReal) (cw : S512x512.Idx → EReal) (b1 : S1x512.Idx → EReal) (r : Fin 10000) (j : Fin 512) : EReal :=
  max ((∑ l : Fin 512, x (ix2 r l) * cw (ix2 l j)) + b1 (ix2 (0 : Fin 1) j)) 0

/-- The body's stored value at any index of the block, by the index's two coordinates. -/
theorem stream_point (x0 : Vec Ideal S1000x512 .f32) (x1 : Vec Ideal S512x512 .bf16) (x2 : Vec Ideal S1x512 .f32) (y : S1000x512.Idx) :
    k1_pay1 (F := Ideal) x0 x1 x2 y
      = max ((∑ l : Fin 512, x0 (ix2 (y 0) l) * x1 (ix2 l (y 1))) + x2 (ix2 (0 : Fin 1) (y 1))) 0 := by
  obtain ⟨p, j, rfl⟩ : ∃ (p : Fin 1000) (j : Fin 512), y = ix2 p j := ⟨y 0, y 1, eq_ix2 y⟩
  exact stream_apply x0 x1 x2 p j

/-- The index maps over the ten grid points: the feature and output windows move down one block of a thousand rows per
    point; the combined weight and the bias row stay at block zero. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the streamed product of the three arrays as the launch finds them. -/
theorem flushed_eq (c : Dev nD) (t : Fin cfg1.N) :
    (dat1 V c).flushed 3 t = ((cfg1.win 3).blk t).view.read (Elt Ideal)
      (fun i => streamOut (V c main_arg0) (V c main_call0_v0) (V c main_call0_v1) (i 0) (i 1)) := by
  show (cfg1.win 3).cut (grid1.coords t) ((dat1 V c).after 3 t) = _
  rw [after1_3]
  unfold out1_3
  rw [View.canon_unit_zero zero_offsets]
  simp only [View.ld_unit_zero (S := S1000x512) zero_offsets, View.ld_unit_zero (S := S512x512) zero_offsets,
    View.ld_unit_zero (S := S1x512) zero_offsets]
  obtain ⟨e00, e01, e10, e11, e20, e21, e30, e31⟩ := index_maps t
  funext y
  show k1_pay1 (F := Ideal) (iblk1 V c 0 t) (iblk1 V c 1 t) (iblk1 V c 2 t) y
    = streamOut (V c main_arg0) (V c main_call0_v0) (V c main_call0_v1) ((((cfg1.win 3).blk t).view.emb y) 0) ((((cfg1.win 3).blk t).view.emb y) 1)
  refine (stream_point (iblk1 V c 0 t) (iblk1 V c 1 t) (iblk1 V c 2 t) y).trans ?_
  unfold streamOut
  -- row `y 0` of the staged features is row `1000·t + y 0` of the feature array
  have ha : ∀ l : Fin 512, iblk1 V c 0 t (ix2 (y 0) l) = V c main_arg0 (ix2 (((cfg1.win 3).blk t).view.emb y 0) l) := fun l => by
    show V c main_arg0 (((cfg1.win 0).blk t).view.emb (ix2 (y 0) l)) = V c main_arg0 (ix2 (((cfg1.win 3).blk t).view.emb y 0) l)
    refine congrArg (V c main_arg0) (funext fun a => Fin.ext ?_)
    match a with
    | ⟨0, _⟩ =>
      show win1_0.index t (0 : Fin 2) * 1000 + 1 * (y 0).val = win1_3.index t (0 : Fin 2) * 1000 + 1 * (y 0).val
      rw [e00, e30]
    | ⟨1, _⟩ =>
      show win1_0.index t (1 : Fin 2) * 512 + 1 * l.val = l.val
      rw [e01]; omega
  -- the staged combined weight is the whole array
  have hb : ∀ l : Fin 512, iblk1 V c 1 t (ix2 l (y 1)) = V c main_call0_v0 (ix2 l (((cfg1.win 3).blk t).view.emb y 1)) := fun l => by
    show V c main_call0_v0 (((cfg1.win 1).blk t).view.emb (ix2 l (y 1))) = V c main_call0_v0 (ix2 l (((cfg1.win 3).blk t).view.emb y 1))
    refine congrArg (V c main_call0_v0) (funext fun a => Fin.ext ?_)
    match a with
    | ⟨0, _⟩ =>
      show win1_1.index t (0 : Fin 2) * 512 + 1 * l.val = l.val
      rw [e10]; omega
    | ⟨1, _⟩ =>
      show win1_1.index t (1 : Fin 2) * 512 + 1 * (y 1).val = win1_3.index t (1 : Fin 2) * 512 + 1 * (y 1).val
      rw [e11, e31]
  -- and so is the staged bias row
  have hc : iblk1 V c 2 t (ix2 (0 : Fin 1) (y 1)) = V c main_call0_v1 (ix2 (0 : Fin 1) (((cfg1.win 3).blk t).view.emb y 1)) := by
    show V c main_call0_v1 (((cfg1.win 2).blk t).view.emb (ix2 (0 : Fin 1) (y 1))) = V c main_call0_v1 (ix2 (0 : Fin 1) (((cfg1.win 3).blk t).view.emb y 1))
    refine congrArg (V c main_call0_v1) (funext fun a => Fin.ext ?_)
    match a with
    | ⟨0, _⟩ =>
      show win1_2.index t (0 : Fin 2) * 1 + 1 * 0 = 0
      rw [e20]
    | ⟨1, _⟩ =>
      show win1_2.index t (1 : Fin 2) * 512 + 1 * (y 1).val = win1_3.index t (1 : Fin 2) * 512 + 1 * (y 1).val
      rw [e21, e31]
  simp only [ha, hb, hc]

/-- An index of the output array lies in point `t`'s block iff each coordinate lies in the block's range on its axis. -/
theorem mem_block (t : Fin cfg1.N) (i : S10000x512.Idx) :
    i ∈ ((cfg1.win 3).blk t).view.set ↔ ∀ a : Fin 2, win1_3.index t a * S1000x512.size a ≤ (i a).val ∧ (i a).val < win1_3.index t a * S1000x512.size a + S1000x512.size a := by
  show i ∈ ((View.whole main_v0).slice (win1_3.rect t)).set ↔ _
  rw [View.set_slice_whole, Rect.mem_set_unit]
  exact Iff.rfl

/-- The ten blocks tile the output: row `r` lies in the block of point `r / 1000`. -/
theorem covered (i : S10000x512.Idx) : ∃ t : Fin cfg1.N, (cfg1.win 3).flush t = true ∧ i ∈ ((cfg1.win 3).blk t).view.set := by
  have hi0 : (i 0).val < 10000 := idx2_lt0 i
  have hi1 : (i 1).val < 512 := idx2_lt1 i
  have hN : cfg1.N = 10 := N_1
  obtain ⟨t, ht⟩ : ∃ t : Fin cfg1.N, t.val = (i 0).val / 1000 := ⟨⟨(i 0).val / 1000, by rw [hN]; omega⟩, rfl⟩
  obtain ⟨-, -, -, -, -, -, e30, e31⟩ := index_maps t
  refine ⟨t, flush1_3 t, ?_⟩
  rw [mem_block]
  intro a
  match a with
  | ⟨0, _⟩ =>
    show win1_3.index t (0 : Fin 2) * 1000 ≤ (i 0).val ∧ (i 0).val < win1_3.index t (0 : Fin 2) * 1000 + 1000
    rw [e30, ht]; omega
  | ⟨1, _⟩ =>
    show win1_3.index t (1 : Fin 2) * 512 ≤ (i 1).val ∧ (i 1).val < win1_3.index t (1 : Fin 2) * 512 + 512
    rw [e31]; omega

/-- The output array after the run is the streamed product of the three arrays as the launch finds them. -/
theorem stream_array (c : Dev nD) :
    (dat1 V c).arrAt 3 cfg1.N = fun i => streamOut (V c main_arg0) (V c main_call0_v0) (V c main_call0_v1) (i 0) (i 1) :=
  (dat1 V c).arrAt_eq_of_cover 3 _ (fun t _ => flushed_eq V c t) covered

end Cert.KernelIdeal.StreamValue

end
-- ==== Proof.LibERealSums.lean ====
/-
  Finite sums of real-valued extended reals.

  An extended real that is the image of a real number adds and multiplies as the real does, so a finite sum of
  products of such values is the image of the real sum of products. Two consequences are stated here: the
  coercion commutes with finite sums, and the product of a row vector with the product of two matrices may be
  bracketed either way, so that a score `(x · A) · p` can be computed as `x · (A · p)`.
  Neither survives an infinite entry (`⊤ + ⊥ = ⊥` and `0 · ⊤ = 0` break distributivity), which is why both are
  stated over real entries.
-/
import Mathlib.Data.EReal.Inv
import Mathlib.Analysis.SpecialFunctions.Pow.Real

namespace ERealSums

open Finset

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real-valued extended reals is the coercion of the real sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- Associativity of a row vector times two matrices, entry by entry: contracting `x` with `a` first and the
    result with `p`, or `a` with `p` first and `x` with the result, gives the same extended real when every
    entry is real. Over the reals this is `∑ₖ (∑ⱼ xⱼ aⱼₖ) pₖ = ∑ⱼ xⱼ (∑ₖ aⱼₖ pₖ)`: distribute, swap the two sums. -/
theorem row_mul_assoc {J K : Type*} [Fintype J] [Fintype K] (x : J → ℝ) (a : J → K → ℝ) (p : K → ℝ) :
    ∑ k, (∑ j, (x j : EReal) * (a j k : EReal)) * (p k : EReal)
      = ∑ j, (x j : EReal) * ∑ k, (a j k : EReal) * (p k : EReal) := by
  have hl : ∀ k, (∑ j, (x j : EReal) * (a j k : EReal)) * (p k : EReal)
      = (((∑ j, x j * a j k) * p k : ℝ) : EReal) := fun k => by
    rw [sum_coe_mul_coe, EReal.coe_mul]
  have hr : ∀ j, (x j : EReal) * ∑ k, (a j k : EReal) * (p k : EReal)
      = ((x j * ∑ k, a j k * p k : ℝ) : EReal) := fun j => by
    rw [sum_coe_mul_coe, EReal.coe_mul]
  simp only [hl, hr, ← coe_sum]
  congr 1
  simp only [Finset.sum_mul, Finset.mul_sum]
  rw [Finset.sum_comm]
  exact Finset.sum_congr rfl fun j _ => Finset.sum_congr rfl fun k _ => by ring

end ERealSums
-- ==== Proof.Spec.lean ====
/-
  One graph-convolution layer, entry by entry, in the two bracketings the two programs use.

  With `x : [10000, 512]` the node features, `s : [512, 512]` the support matrix, `w : [512, 512]` the linear layer's
  weight (stored output-major, so the layer multiplies by its transpose) and `b : [512]` its bias, the layer's output is
  `relu (x · s · wᵀ + b)`. Entry `(r, j)` is `max (A r j + b j) 0`, where the double contraction `A r j` may be
  bracketed `∑ₗ x r l · (∑ₖ s l k · w j k)` (combine the two weights first, then one product with the features) or
  `∑ₖ (∑ₗ x r l · s l k) · w j k` (features times support first, then the linear layer). Over the reals the two are
  equal by distributing and exchanging the two finite sums. On the extended reals that step needs every entry of
  `x`, `s` and `w` to be real (an infinite entry breaks distributivity); the bias and the final maximum are the
  same on both sides and need nothing.
-/
import Idealize.ShloMosaic.PureOps.Ideal
import Idealize.ShloMosaic.Lib.ValueIdx
import proofs.«142925_g50663434224280_cont_8to1_c_477_6_alg».proof.Proof.LibERealSums

noncomputable section

open scoped BigOperators

namespace Cert.GcnLayer

open Idealize.ShloMosaic Idealize.ShloMosaic.ValueIdx

/-- The shape of the features and of the output. -/
abbrev Rows : Shape := ⟨2, ![10000, 512]⟩
/-- The shape of the support matrix, of the weight and of their combination. -/
abbrev Sq : Shape := ⟨2, ![512, 512]⟩
/-- The shape of the bias. -/
abbrev Row1 : Shape := ⟨1, ![512]⟩

/-- The combined weight `s · wᵀ` at `(l, j)`: the contraction of row `l` of `s` with row `j` of `w`. -/
def combined (s w : Sq.Idx → EReal) (l j : Fin 512) : EReal := ∑ k : Fin 512, s (ix2 l k) * w (ix2 j k)

/-- The layer with the weights combined first: `max (∑ₗ x r l · (s · wᵀ) l j + b j) 0`. -/
def fused (x : Rows.Idx → EReal) (s w : Sq.Idx → EReal) (b : Row1.Idx → EReal) (r : Fin 10000) (j : Fin 512) : EReal :=
  max ((∑ l : Fin 512, x (ix2 r l) * combined s w l j) + b (ix1 j)) 0

/-- The layer as two chained products: `max (∑ₖ (x · s) r k · w j k + b j) 0`. -/
def chained (x : Rows.Idx → EReal) (s w : Sq.Idx → EReal) (b : Row1.Idx → EReal) (r : Fin 10000) (j : Fin 512) : EReal :=
  max ((∑ k : Fin 512, (∑ l : Fin 512, x (ix2 r l) * s (ix2 l k)) * w (ix2 j k)) + b (ix1 j)) 0

/-- Every entry of the array is (the image of) a real number. -/
def AllReal {S : Shape} (x : S.Idx → EReal) : Prop := ∀ i, ∃ a : ℝ, x i = (a : EReal)

/-- For real features, support and weight the two bracketings give the same entry: associativity of the product of a
    row with two matrices, which over the reals is distributivity and an exchange of the two sums. -/
theorem fused_eq_chained (x : Rows.Idx → EReal) (s w : Sq.Idx → EReal) (b : Row1.Idx → EReal)
    (hx : AllReal x) (hs : AllReal s) (hw : AllReal w) (r : Fin 10000) (j : Fin 512) :
    fused x s w b r j = chained x s w b r j := by
  choose x' hx' using hx
  choose s' hs' using hs
  choose w' hw' using hw
  have h : (∑ l : Fin 512, x (ix2 r l) * ∑ k : Fin 512, s (ix2 l k) * w (ix2 j k))
      = ∑ k : Fin 512, (∑ l : Fin 512, x (ix2 r l) * s (ix2 l k)) * w (ix2 j k) := by
    simp only [hx', hs', hw']
    exact (ERealSums.row_mul_assoc (fun l : Fin 512 => x' (ix2 r l)) (fun (l k : Fin 512) => s' (ix2 l k))
      (fun k : Fin 512 => w' (ix2 j k))).symm
  unfold fused chained combined
  rw [h]

end Cert.GcnLayer

end
-- ==== Proof.CombineValue.lean ====
/-
  The first launch's output array: the combined weight.

  The launch has no grid: one point, at which it stages the support matrix and the weight whole and writes the whole
  output. What the body stores at `(l, j)` is row `l` of the support matrix contracted with row `j` of the weight,
  `∑ₖ s l k · w j k`, so after the run the output array is the combined weight `s · wᵀ` of the two arrays as the launch
  finds them.
-/
import proofs.«142925_g50663434224280_cont_8to1_c_477_6_alg».proof.Proof.Gen.KernelIdeal.Frame
import proofs.«142925_g50663434224280_cont_8to1_c_477_6_alg».proof.Proof.Payloads
import proofs.«142925_g50663434224280_cont_8to1_c_477_6_alg».proof.Proof.Spec

set_option maxRecDepth 16384

noncomputable section

open scoped BigOperators

namespace Cert.KernelIdeal.CombineValue

open Cert.KernelIdeal Cert.KernelIdeal.Gen Cert.KernelIdeal.Payloads Cert.GcnLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Both loads and the store of the body start at the origin of their buffers. -/
theorem zero_offsets : (![0, 0] : Fin 2 → Nat) = fun _ => 0 := funext fun a => by fin_cases a <;> rfl

/-- The body's stored value at any index, by the index's two coordinates. -/
theorem combine_point (x0 x1 : Vec Ideal S512x512 .f32) (y : S512x512.Idx) :
    k0_pay1 (F := Ideal) x0 x1 y = ∑ k : Fin 512, x0 (ix2 (y 0) k) * x1 (ix2 (y 1) k) := by
  obtain ⟨l, j, rfl⟩ : ∃ (l j : Fin 512), y = ix2 l j := ⟨y 0, y 1, eq_ix2 y⟩
  exact combine_apply x0 x1 l j

/-- At the one point every window sits at block zero on both axes. -/
theorem index_maps : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the one point writes back is (its block, the whole, of) the combined weight of the two arrays as the launch
    finds them. -/
theorem flushed_eq (c : Dev nD) (t : Fin cfg0.N) :
    (dat0 V c).flushed 2 t = ((cfg0.win 2).blk t).view.read (Elt Ideal)
      (fun i => combined (V c main_arg1) (V c main_arg2) (i 0) (i 1)) := by
  show (cfg0.win 2).cut (grid0.coords t) ((dat0 V c).after 2 t) = _
  rw [after0_2]
  unfold out0_2
  rw [View.canon_unit_zero zero_offsets]
  simp only [View.ld_unit_zero (S := S512x512) zero_offsets]
  obtain ⟨e00, e01, e10, e11, e20, e21⟩ := index_maps t
  funext y
  show k0_pay1 (F := Ideal) (iblk0 V c 0 t) (iblk0 V c 1 t) y
    = combined (V c main_arg1) (V c main_arg2) ((((cfg0.win 2).blk t).view.emb y) 0) ((((cfg0.win 2).blk t).view.emb y) 1)
  refine (combine_point (iblk0 V c 0 t) (iblk0 V c 1 t) y).trans ?_
  unfold combined
  have ha : ∀ k : Fin 512, iblk0 V c 0 t (ix2 (y 0) k) = V c main_arg1 (ix2 (((cfg0.win 2).blk t).view.emb y 0) k) := fun k => by
    show V c main_arg1 (((cfg0.win 0).blk t).view.emb (ix2 (y 0) k)) = V c main_arg1 (ix2 (((cfg0.win 2).blk t).view.emb y 0) k)
    refine congrArg (V c main_arg1) (funext fun a => Fin.ext ?_)
    match a with
    | ⟨0, _⟩ =>
      show win0_0.index t (0 : Fin 2) * 512 + 1 * (y 0).val = win0_2.index t (0 : Fin 2) * 512 + 1 * (y 0).val
      rw [e00, e20]
    | ⟨1, _⟩ =>
      show win0_0.index t (1 : Fin 2) * 512 + 1 * k.val = k.val
      rw [e01]; omega
  have hb : ∀ k : Fin 512, iblk0 V c 1 t (ix2 (y 1) k) = V c main_arg2 (ix2 (((cfg0.win 2).blk t).view.emb y 1) k) := fun k => by
    show V c main_arg2 (((cfg0.win 1).blk t).view.emb (ix2 (y 1) k)) = V c main_arg2 (ix2 (((cfg0.win 2).blk t).view.emb y 1) k)
    refine congrArg (V c main_arg2) (funext fun a => Fin.ext ?_)
    match a with
    | ⟨0, _⟩ =>
      show win0_1.index t (0 : Fin 2) * 512 + 1 * (y 1).val = win0_2.index t (1 : Fin 2) * 512 + 1 * (y 1).val
      rw [e10, e21]
    | ⟨1, _⟩ =>
      show win0_1.index t (1 : Fin 2) * 512 + 1 * k.val = k.val
      rw [e11]; omega
  simp only [ha, hb]

/-- An index of the output array lies in the point's block iff each coordinate lies in the block's range on its axis. -/
theorem mem_block (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_call0_v0).slice (win0_2.rect t)).set ↔ _
  rw [View.set_slice_whole, Rect.mem_set_unit]
  exact Iff.rfl

/-- The one block is the whole output. -/
theorem covered (i : S512x512.Idx) : ∃ t : Fin cfg0.N, (cfg0.win 2).flush t = true ∧ i ∈ ((cfg0.win 2).blk t).view.set := by
  have hi0 : (i 0).val < 512 := idx2_lt0 i
  have hi1 : (i 1).val < 512 := idx2_lt1 i
  obtain ⟨-, -, -, -, e20, e21⟩ := index_maps t0_0
  refine ⟨t0_0, flush0_2 t0_0, ?_⟩
  rw [mem_block]
  intro a
  match a with
  | ⟨0, _⟩ =>
    show win0_2.index t0_0 (0 : Fin 2) * 512 ≤ (i 0).val ∧ (i 0).val < win0_2.index t0_0 (0 : Fin 2) * 512 + 512
    rw [e20]; omega
  | ⟨1, _⟩ =>
    show win0_2.index t0_0 (1 : Fin 2) * 512 ≤ (i 1).val ∧ (i 1).val < win0_2.index t0_0 (1 : Fin 2) * 512 + 512
    rw [e21]; omega

/-- The output array after the run is the combined weight of the two arrays as the launch finds them. -/
theorem combine_array (c : Dev nD) :
    (dat0 V c).arrAt 2 cfg0.N = fun i => combined (V c main_arg1) (V c main_arg2) (i 0) (i 1) :=
  (dat0 V c).arrAt_eq_of_cover 2 _ (fun t _ => flushed_eq V c t) covered

end Cert.KernelIdeal.CombineValue

end
-- ==== Proof.KernelValue.lean ====
/-
  The idealized kernel's result array as one function of the four arguments.

  The second launch finds, on entry, the features as launched (nothing before it writes them), the combined weight the
  first launch left (the host reshape between the launches does not touch it), and the bias reshaped to one row. Its
  output is the streamed product of those three, so entry `(r, j)` of the result is
  `max (∑ₗ x r l · (∑ₖ s l k · w j k) + b j) 0`: the layer with the two weights combined first.
-/
import proofs.«142925_g50663434224280_cont_8to1_c_477_6_alg».proof.Proof.KernelRun
import proofs.«142925_g50663434224280_cont_8to1_c_477_6_alg».proof.Proof.StreamValue
import proofs.«142925_g50663434224280_cont_8to1_c_477_6_alg».proof.Proof.CombineValue
import proofs.«142925_g50663434224280_cont_8to1_c_477_6_alg».proof.Proof.Spec
import Idealize.ShloMosaic.Lib.StableHlo.Run
import Idealize.ShloMosaic.Lib.ValueLayout

set_option maxRecDepth 16384

noncomputable section

open scoped BigOperators

namespace Cert.KernelIdeal.KernelValue

open Cert.KernelIdeal Cert.KernelIdeal.Gen Cert.GcnLayer
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The second launch finds the features as launched. -/
theorem entry_features (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The second launch finds the combined weight of the support matrix and the weight as launched. -/
theorem entry_combined (c : Dev nD) :
    V2 m ρ c main_call0_v0
      = fun i => combined (m ((c : Thread nD τ).loc main_arg1)) (m ((c : Thread nD τ).loc main_arg2)) (i 0) (i 1) := by
  have h1 : W2 m ρ c (Proc.devRef .tc main_call0_v0) = W1 m ρ c (Proc.devRef .tc main_call0_v0) :=
    StableHlo.after_of_forall_not_mem (b := Proc.devRef .tc main_call0_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h1.trans ((W1_arr m ρ c 2).trans (CombineValue.combine_array (V0 m ρ) c))

/-- The second launch finds the bias reshaped to one row. -/
theorem entry_bias (c : Dev nD) :
    V2 m ρ c main_call0_v1 = shapeCast S1x512 (m ((c : Thread nD τ).loc main_arg3)) shapeCasts_S512_S1x512 := by
  show StableHlo.after hostOps1 (W1 m ρ c) (Proc.devRef .tc main_call0_v1) = _
  after_results
  have e : W1 m ρ c (Proc.devRef .tc main_arg3) = m ((c : Thread nD τ).loc main_arg3) := W1_of_ne m ρ c main_arg3 (by decide)
  funext i
  show shapeCast S1x512 (W1 m ρ c (Proc.devRef .tc main_arg3)) shapeCasts_S512_S1x512 i = _
  rw [e]

/-- The streamed product of the features, the combined weight and the bias as one row is the layer with the weights
    combined first: the row's entry `(0, j)` is the bias's entry `j`. -/
theorem stream_eq_fused (x : S10000x512.Idx → EReal) (s w : S512x512.Idx → EReal) (b : S512.Idx → EReal)
    (r : Fin 10000) (j : Fin 512) :
    StreamValue.streamOut x (fun i => combined s w (i 0) (i 1)) (shapeCast S1x512 b shapeCasts_S512_S1x512) r j
      = fused x s w b r j := by
  unfold StreamValue.streamOut fused
  have hb : shapeCast S1x512 b shapeCasts_S512_S1x512 (ix2 (0 : Fin 1) j) = b (ix1 j) :=
    shapeCast_a_1a_apply b shapeCasts_S512_S1x512 0 j
  show max ((∑ l : Fin 512, x (ix2 r l) * combined s w l j) + shapeCast S1x512 b shapeCasts_S512_S1x512 (ix2 (0 : Fin 1) j)) 0
    = max ((∑ l : Fin 512, x (ix2 r l) * combined s w l j) + b (ix1 j)) 0
  rw [hb]

/-- The second launch's output array is the layer with the weights combined first, at every entry. -/
theorem kernel_array (c : Dev nD) :
    (dat1 (V2 m ρ) c).arrAt 3 cfg1.N
      = fun i => fused (m ((c : Thread nD τ).loc main_arg0)) (m ((c : Thread nD τ).loc main_arg1))
          (m ((c : Thread nD τ).loc main_arg2)) (m ((c : Thread nD τ).loc main_arg3)) (i 0) (i 1) := by
  rw [StreamValue.stream_array (V2 m ρ) c, entry_features, entry_combined, entry_bias]
  funext i
  exact stream_eq_fused _ _ _ _ (i 0) (i 1)

/-- The idealized kernel's run: every weakly fair execution terminates without a fault, the result holds the layer
    with the weights combined first, and the arguments are unchanged. -/
theorem run : θ_run defs (onTc (τ := τ) (main (F := Ideal))) ⟨m, fun _ => 0, ρ⟩ (fun r => ∀ c : Dev nD,
      r.2.mem ((c.tc : Thread nD τ).loc main_v0)
        = (fun i => fused (m ((c.tc : Thread nD τ).loc main_arg0)) (m ((c.tc : Thread nD τ).loc main_arg1))
            (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (kernel_array m ρ c), (h c).2⟩) (RunValue.run_out m ρ)

end Cert.KernelIdeal.KernelValue

end
-- ==== Proof.RefValue.lean ====
/-
  The reference program's result, entry by entry.

  The reference multiplies the features by the support matrix, multiplies the result by the transposed weight, adds the
  bias broadcast over the rows, and takes the maximum with zero. Read at entry `(r, j)` through the program's
  operations one at a time this is `max (∑ₖ (∑ₗ x r l · s l k) · w j k + b j) 0`: the second product's right operand
  is the transpose, so its entry `(k, j)` is `w j k`; the bias reaches `(r, j)` through a broadcast to one row
  and a broadcast of that row over all rows, both of which read `b j`; and the zero the maximum is taken with is the
  word of all zero bits.
-/
import proofs.«142925_g50663434224280_cont_8to1_c_477_6_alg».proof.Proof.Gen.ReferenceIdeal.Read
import proofs.«142925_g50663434224280_cont_8to1_c_477_6_alg».proof.Proof.Spec

noncomputable section

namespace Cert.ReferenceIdeal.RefValue

open Cert.ReferenceIdeal Cert.ReferenceIdeal.Read Idealize.ShloMosaic Idealize.ShloMosaic.ValueIdx Cert.GcnLayer

/-! The operand indices of the two products, of the transpose and of the two broadcasts, at explicit coordinates. -/

theorem second_lhs (r : Fin 10000) (j k : Fin 512) : lidx_main_v2 (ix2 r j) k = ix2 r k :=
  funext fun a => by match a with | ⟨0, _⟩ => rfl | ⟨1, _⟩ => rfl
theorem second_rhs (r : Fin 10000) (j k : Fin 512) : ridx_main_v2 (ix2 r j) k = ix2 k j :=
  funext fun a => by match a with | ⟨0, _⟩ => rfl | ⟨1, _⟩ => rfl
theorem first_lhs (r : Fin 10000) (k l : Fin 512) : lidx_main_v0 (ix2 r k) l = ix2 r l :=
  funext fun a => by match a with | ⟨0, _⟩ => rfl | ⟨1, _⟩ => rfl
theorem first_rhs (r : Fin 10000) (k l : Fin 512) : ridx_main_v0 (ix2 r k) l = ix2 l k :=
  funext fun a => by match a with | ⟨0, _⟩ => rfl | ⟨1, _⟩ => rfl
theorem transposed (k j : Fin 512) : idx_main_v1 (ix2 k j) = ix2 j k :=
  funext fun a => by match a with | ⟨0, _⟩ => rfl | ⟨1, _⟩ => rfl
theorem bias_at (r : Fin 10000) (j : Fin 512) : idx_main_v3 (idx_main_v4 (ix2 r j)) = ix1 j :=
  funext fun a => by match a with | ⟨0, _⟩ => rfl

/-- The reference's result array is the chained form of the layer at every entry. -/
theorem reference_eq (x0 : (⟨S10000x512, .f32⟩ : BufTy).Contents (Elt Ideal)) (x1 x2 : (⟨S512x512, .f32⟩ : BufTy).Contents (Elt Ideal))
    (x3 : (⟨S512, .f32⟩ : BufTy).Contents (Elt Ideal)) :
    val_main_v6 (F := Ideal) x0 x1 x2 x3 = fun i => chained x0 x1 x2 x3 (i 0) (i 1) := by
  funext i
  obtain ⟨r, j, rfl⟩ : ∃ (r : Fin 10000) (j : Fin 512), i = ix2 r j := ⟨i 0, i 1, eq_ix2 i⟩
  show _ = chained x0 x1 x2 x3 r j
  rw [val_main_v6_apply, val_main_v5_apply, val_main_v2_apply, val_main_v4_apply, val_main_v3_apply,
    val_main_call0_v0_apply, val_main_call0_cst_apply]
  simp only [second_lhs, second_rhs, val_main_v0_apply, val_main_v1_apply, first_lhs, first_rhs, transposed, bias_at]
  unfold chained
  show max (_ + _) (Ideal.ofBits .f32 0x00000000#32) = _
  rw [Ideal.ofBits_zero_f32]

end Cert.ReferenceIdeal.RefValue

end
-- ==== Proof.Finite.lean ====
/-
  From the precondition to real entries.

  The precondition is the conjunction, over the four arguments, of "every entry's absolute value is below `+∞`". On
  the extended reals `|x| = max x (-x)`, which is `+∞` at both infinities, so `|x| < +∞` holds exactly when `x`
  is (the image of) a real number. The conjunction is spelt as a chain of one-bit `and`s of four reductions by
  `and` over all axes; a reduction by `and` that came out 1 met a 1 at every index.
-/
import proofs.«142925_g50663434224280_cont_8to1_c_477_6_alg».proof.Pre_finite_inputs
import Idealize.ShloMosaic.Lib.ReduceAll
import Idealize.ShloMosaic.Lib.ValueIdx
import Idealize.ShloMosaic.PureOps.Ideal.Laws
import proofs.«142925_g50663434224280_cont_8to1_c_477_6_alg».proof.Proof.Spec

noncomputable section

namespace Cert.Pre_finite_inputs.Finite

open Idealize.ShloMosaic Idealize.ShloMosaic.ValueIdx Cert.Pre_finite_inputs Cert.GcnLayer

variable [Cert.Pre_finite_inputs.Facts]
open Cert.Pre_finite_inputs.Facts

/-- The scalar shape has one index. -/
instance : Subsingleton S_.Idx := ⟨fun a b => funext fun d => d.elim0⟩

/-- The word with all exponent bits set and no fraction bit denotes `+∞`. -/
theorem inf_word : Ideal.ofBits .f32 0x7F800000#32 = (⊤ : EReal) := by simp [Ideal.ofBits, Ideal.ieee]

/-- An extended real whose absolute value is below `+∞` is a real number. -/
theorem real_of_abs_lt_inf (x : EReal) (h : Ideal.cmp .olt (max x (-x)) (Ideal.ofBits .f32 0x7F800000#32) = 1#1) :
    ∃ a : ℝ, x = (a : EReal) := by
  rw [inf_word] at h
  induction x using EReal.rec with
  | bot => exact absurd h (by simp [Ideal.cmp])
  | top => exact absurd h (by simp [Ideal.cmp])
  | coe r => exact ⟨r, rfl⟩

/-- One argument: if "all entries have absolute value below `+∞`" came out 1, every entry is real. -/
theorem allReal_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant (F := Ideal) S_ .f32 0x7F800000#32)))
      (constantI S_ 1 1#1) hr hu ix0 = 1#1) : AllReal x := by
  intro i
  have hi := Host.reduce_andi_all _ _ hr hu ix0 e i
  exact real_of_abs_lt_inf (x i) hi

/-- The precondition makes every entry of every argument real. -/
theorem all_real (a0 : FVec Ideal S10000x512 .f32) (a1 a2 : FVec Ideal S512x512 .f32) (a3 : FVec Ideal S512 .f32)
    (h : fn (F := Ideal) a0 a1 a2 a3 = fun _ => 1#1) :
    AllReal a0 ∧ AllReal a1 ∧ AllReal a2 ∧ AllReal a3 := by
  have h0 := congrFun h ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨allReal_of_all a0 _ _ _ h0', allReal_of_all a1 _ _ _ h1, allReal_of_all a2 _ _ _ h2, allReal_of_all a3 _ _ _ h3⟩

end Cert.Pre_finite_inputs.Finite

end
-- ==== Proof.lean ====
/-
  One graph-convolution layer, `relu ((x · s) · wᵀ + b)`, computed by the kernel as `relu (x · (s · wᵀ) + b)`.

  The kernel combines the support matrix `s` and the linear layer's weight `w` once (a first launch writes `s · wᵀ`),
  then streams the ten blocks of a thousand feature rows through one product with the combined weight, adds the bias and
  clamps at zero (a second launch). The reference multiplies the features by `s`, the result by `wᵀ`, adds the bias and
  clamps. Entry `(r, j)` is `max (A r j + b j) 0` on both sides, where the kernel's `A r j` is
  `∑ₗ x r l · (∑ₖ s l k · w j k)` and the reference's is `∑ₖ (∑ₗ x r l · s l k) · w j k`. The two double sums are equal
  by distributivity and an exchange of the two finite sums: a law of the reals, which holds here because the
  precondition makes every entry of `x`, `s` and `w` a real number (on the extended reals an infinite entry would
  break distributivity). Changes of float format are the identity on exact values, so the sixteen-bit storage of the
  combined weight and of the streamed features does not enter.

  The three programs' runs: the two kernels' frames are the generated ones; the reference's frame is its generated run
  with the result dropped; the idealization rewrote no operation, so that conjunct is trivial.
-/
import proofs.«142925_g50663434224280_cont_8to1_c_477_6_alg».proof.Defs
import proofs.«142925_g50663434224280_cont_8to1_c_477_6_alg».proof.Proof.Gen.Kernel
import proofs.«142925_g50663434224280_cont_8to1_c_477_6_alg».proof.Proof.Gen.Kernel.Skeleton
import proofs.«142925_g50663434224280_cont_8to1_c_477_6_alg».proof.Proof.Gen.Kernel.Launch
import proofs.«142925_g50663434224280_cont_8to1_c_477_6_alg».proof.Proof.Gen.Kernel.Points
import proofs.«142925_g50663434224280_cont_8to1_c_477_6_alg».proof.Proof.Gen.Kernel.Frame
import proofs.«142925_g50663434224280_cont_8to1_c_477_6_alg».proof.Proof.Gen.KernelIdeal
import proofs.«142925_g50663434224280_cont_8to1_c_477_6_alg».proof.Proof.Gen.KernelIdeal.Skeleton
import proofs.«142925_g50663434224280_cont_8to1_c_477_6_alg».proof.Proof.Gen.KernelIdeal.Launch
import proofs.«142925_g50663434224280_cont_8to1_c_477_6_alg».proof.Proof.Gen.KernelIdeal.Points
import proofs.«142925_g50663434224280_cont_8to1_c_477_6_alg».proof.Proof.Gen.KernelIdeal.Frame
import proofs.«142925_g50663434224280_cont_8to1_c_477_6_alg».proof.Proof.Gen.ReferenceIdeal
import proofs.«142925_g50663434224280_cont_8to1_c_477_6_alg».proof.Proof.Gen.Pre_finite_inputs
import proofs.«142925_g50663434224280_cont_8to1_c_477_6_alg».proof.Proof.Gen.ReferenceIdeal.Run
import proofs.«142925_g50663434224280_cont_8to1_c_477_6_alg».proof.Proof.Gen.ReferenceIdeal.Read
import proofs.«142925_g50663434224280_cont_8to1_c_477_6_alg».proof.Proof.KernelValue
import proofs.«142925_g50663434224280_cont_8to1_c_477_6_alg».proof.Proof.RefValue
import proofs.«142925_g50663434224280_cont_8to1_c_477_6_alg».proof.Proof.Finite
import Idealize.ShloMosaic.Adequacy
import Idealize.ShloMosaic.Init

noncomputable section

namespace Cert.Proof

open Idealize.ShloMosaic Idealize.SL.Sem Cert.GcnLayer

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: the kernel's array is
    the layer with the weights combined first, the reference's the layer as two chained products, and for the real
    entries the precondition gives the two are equal entry by entry. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_eq,
    (hagree c).1, (hagree c).2.1, (hagree c).2.2.1, (hagree c).2.2.2]
  obtain ⟨h0, h1, h2, _⟩ := Cert.Pre_finite_inputs.Finite.all_real _ _ _ _ (hpre c)
  funext i
  exact (fused_eq_chained _ _ _ _ h0 h1 h2 (i 0) (i 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
